-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 97
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S_, .f32⟩
  | .hbm, ⟨84, _⟩ => ⟨S128x128, .f32⟩
  | .hbm, ⟨85, _⟩ => ⟨S_, .i32⟩
  | .hbm, ⟨86, _⟩ => ⟨S1, .i32⟩
  | .hbm, ⟨87, _⟩ => ⟨S128x128, .f32⟩
  | .hbm, ⟨88, _⟩ => ⟨S_, .f32⟩
  | .hbm, ⟨89, _⟩ => ⟨S128, .f32⟩
  | .hbm, ⟨90, _⟩ => ⟨S_, .i32⟩
  | .hbm, ⟨91, _⟩ => ⟨S1, .i32⟩
  | .hbm, ⟨92, _⟩ => ⟨S128, .f32⟩
  | .hbm, ⟨93, _⟩ => ⟨S1x128, .f32⟩
  | .hbm, ⟨94, _⟩ => ⟨S1x128, .f32⟩
  | .hbm, ⟨95, _⟩ => ⟨S100000x128, .f32⟩
  | .hbm, ⟨96, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  shapeCasts_S128x128_S128x128 : S128x128.ShapeCasts S128x128
  slices_S100000x128_S100000x1_0_0 : S100000x128.Slices ![0, 0] S100000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128x128_S1_S128x1_01_n_1_0_wf : ScatterDims.WF S128x128 S1 S128x1 [0, 1] [] [1] 0
  scatter_S128_S1_S1_0_n_0_0_wf : ScatterDims.WF S128 S1 S1 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128x128_S1_S128x1_01_n_1_0 : ScatterDims S128x128 S1 S128x1 where
  updateWindowDims := [0, 1]
  insertedWindowDims := []
  scatterDimsToOperandDims := [1]
  indexVectorDim := 0
  wf := scatter_S128x128_S1_S128x1_01_n_1_0_wf
def scatter_S128_S1_S1_0_n_0_0 : ScatterDims S128 S1 S1 where
  updateWindowDims := [0]
  insertedWindowDims := []
  scatterDimsToOperandDims := [0]
  indexVectorDim := 0
  wf := scatter_S128_S1_S1_0_n_0_0_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x1, .f32⟩
  | .hbm, ⟨95, _⟩ => ⟨S1x1, .f32⟩
  | .hbm, ⟨96, _⟩ => ⟨S100000x1, .f32⟩
  | .hbm, ⟨97, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel's run with its RESULT kept.

  @main is nine segments: three stretches of host operations, the first matrix product's grid, a stretch, the second
  grid, a stretch, the third grid, and the final slice. The frame proof folds the buffer contents through those
  segments (`W0` … `W9`) and shows that every weakly fair execution ends with every unscoped buffer at the last
  boundary's contents `W9`. Its statement then keeps only the arguments. Here the same run is stated with the
  result buffer kept as well: it ends at `W9` read at the result's reference. What that value IS — the slice of the
  third grid's array, itself a function of the second stretch's results, and so on back to the arguments — is read
  back in the sibling modules.
-/
import proofs.«136650_j63556926046385_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents (the fold `W9` of the nine segments over the launch memory) and the arguments as launched. -/
theorem run_out : θ_run defs (onTc (τ := τ) (main (F := F))) ⟨m, fun _ => 0, ρ⟩ (fun r => ∀ c : Dev nD,
      r.2.mem ((c.tc : Thread nD τ).loc main_v68) = W9 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v68 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Val

end
-- ==== Proof.Spec.lean ====
/-
  The three dense stages as whole-array functions, and what joins the kernel's last stage to the reference's.

  Each of the kernel's three grids computes, row block by row block, a plain matrix product of a full-height array:
    * stage 0:  `x · W`;
    * stage 1:  `relu (a + b) · W`, the bias `b` a one-row matrix added to every row;
    * stage 2:  `relu (a + b) · W + β`, `β` a one-row matrix added to every row of the product.
  Entry `(e, q)` of a product is the sum over `k` of `left (e, k) · right (k, q)`: it depends on row `e` of the left
  factor alone, which is why a row block of the product is the product of the row block.

  The reference's last stage multiplies by a one-column matrix `Wl` and adds a one-entry bias; the kernel multiplies
  by a 128-column matrix whose column 0 is `Wl`, adds a 128-entry row whose entry 0 is that bias, and keeps column 0.
  Column 0 of a product depends on column 0 of the right factor alone (`stage2_col` below), so the two agree — no
  property of the other 127 columns is used, and no finiteness: the sums are the same sums term by term.
-/
import Idealize.ShloMosaic.PureOps.Ideal.Laws
import Idealize.ShloMosaic.Lib.ValueIdx

noncomputable section

namespace Cert.Spec

open Idealize.ShloMosaic Idealize.ShloMosaic.ValueIdx

/-- Rows times columns: entry `(e, q)` is the sum over `k` of `x (e, k) · w (k, q)`. -/
def mm {n K h : Nat} (x : (⟨2, ![n, K]⟩ : Shape).Idx → EReal) (w : (⟨2, ![K, h]⟩ : Shape).Idx → EReal) :
    (⟨2, ![n, h]⟩ : Shape).Idx → EReal :=
  fun i => ∑ k : Fin K, x (ix2 ⟨(i 0).val, idx2_lt0 i⟩ k) * w (ix2 k ⟨(i 1).val, idx2_lt1 i⟩)

theorem mm_apply {n K h : Nat} (x : (⟨2, ![n, K]⟩ : Shape).Idx → EReal) (w : (⟨2, ![K, h]⟩ : Shape).Idx → EReal)
    (e : Fin n) (q : Fin h) : mm x w (ix2 e q) = ∑ k : Fin K, x (ix2 e k) * w (ix2 k q) := rfl

/-- A one-row bias added to every row, then the larger of that and `z` (the positive part, `z` being zero). -/
def reluBias {n K : Nat} (z : EReal) (a : (⟨2, ![n, K]⟩ : Shape).Idx → EReal) (b : (⟨2, ![1, K]⟩ : Shape).Idx → EReal) :
    (⟨2, ![n, K]⟩ : Shape).Idx → EReal :=
  fun i => max (a i + b (ix2 (0 : Fin 1) ⟨(i 1).val, idx2_lt1 i⟩)) z

theorem reluBias_apply {n K : Nat} (z : EReal) (a : (⟨2, ![n, K]⟩ : Shape).Idx → EReal)
    (b : (⟨2, ![1, K]⟩ : Shape).Idx → EReal) (e : Fin n) (k : Fin K) :
    reluBias z a b (ix2 e k) = max (a (ix2 e k) + b (ix2 (0 : Fin 1) k)) z := rfl

/-- A vector as a one-row matrix. -/
def rowOf {K : Nat} (b : (⟨1, ![K]⟩ : Shape).Idx → EReal) : (⟨2, ![1, K]⟩ : Shape).Idx → EReal :=
  fun i => b (ix1 ⟨(i 1).val, idx2_lt1 i⟩)

theorem rowOf_apply {K : Nat} (b : (⟨1, ![K]⟩ : Shape).Idx → EReal) (u : Fin 1) (k : Fin K) :
    rowOf b (ix2 u k) = b (ix1 k) := rfl

/-- Stage 1: the biased, rectified array times `w`. -/
def stage1 {n K h : Nat} (z : EReal) (a : (⟨2, ![n, K]⟩ : Shape).Idx → EReal) (b : (⟨2, ![1, K]⟩ : Shape).Idx → EReal)
    (w : (⟨2, ![K, h]⟩ : Shape).Idx → EReal) : (⟨2, ![n, h]⟩ : Shape).Idx → EReal :=
  mm (reluBias z a b) w

theorem stage1_apply {n K h : Nat} (z : EReal) (a : (⟨2, ![n, K]⟩ : Shape).Idx → EReal) (b : (⟨2, ![1, K]⟩ : Shape).Idx → EReal)
    (w : (⟨2, ![K, h]⟩ : Shape).Idx → EReal) (e : Fin n) (q : Fin h) :
    stage1 z a b w (ix2 e q) = ∑ k : Fin K, max (a (ix2 e k) + b (ix2 (0 : Fin 1) k)) z * w (ix2 k q) := rfl

/-- Stage 2: stage 1's product with a one-row bias added to every row. -/
def stage2 {n K h : Nat} (z : EReal) (a : (⟨2, ![n, K]⟩ : Shape).Idx → EReal) (b : (⟨2, ![1, K]⟩ : Shape).Idx → EReal)
    (w : (⟨2, ![K, h]⟩ : Shape).Idx → EReal) (β : (⟨2, ![1, h]⟩ : Shape).Idx → EReal) : (⟨2, ![n, h]⟩ : Shape).Idx → EReal :=
  fun i => mm (reluBias z a b) w i + β (ix2 (0 : Fin 1) ⟨(i 1).val, idx2_lt1 i⟩)

theorem stage2_apply {n K h : Nat} (z : EReal) (a : (⟨2, ![n, K]⟩ : Shape).Idx → EReal) (b : (⟨2, ![1, K]⟩ : Shape).Idx → EReal)
    (w : (⟨2, ![K, h]⟩ : Shape).Idx → EReal) (β : (⟨2, ![1, h]⟩ : Shape).Idx → EReal) (e : Fin n) (q : Fin h) :
    stage2 z a b w β (ix2 e q) = (∑ k : Fin K, max (a (ix2 e k) + b (ix2 (0 : Fin 1) k)) z * w (ix2 k q)) + β (ix2 (0 : Fin 1) q) := rfl

/-- Column `q` of stage 2 sees only column `q` of the right factor and entry `q` of the row bias: with a
    one-column factor `wl` agreeing with column `q` of `w` and a one-entry bias `βl` agreeing with entry `q` of `β`,
    it is the one-column stage 2. -/
theorem stage2_col {n K h : Nat} (z : EReal) (a : (⟨2, ![n, K]⟩ : Shape).Idx → EReal) (b : (⟨2, ![1, K]⟩ : Shape).Idx → EReal)
    (w : (⟨2, ![K, h]⟩ : Shape).Idx → EReal) (β : (⟨2, ![1, h]⟩ : Shape).Idx → EReal)
    (wl : (⟨2, ![K, 1]⟩ : Shape).Idx → EReal) (βl : EReal) (q : Fin h)
    (hw : ∀ k : Fin K, w (ix2 k q) = wl (ix2 k (0 : Fin 1))) (hβ : β (ix2 (0 : Fin 1) q) = βl) (e : Fin n) :
    stage2 z a b w β (ix2 e q) = (∑ k : Fin K, max (a (ix2 e k) + b (ix2 (0 : Fin 1) k)) z * wl (ix2 k (0 : Fin 1))) + βl := by
  rw [stage2_apply, hβ]
  exact congrArg (· + βl) (Finset.sum_congr rfl fun k _ => by rw [hw k])

end Cert.Spec

end
-- ==== Proof.RefValue.lean ====
/-
  The reference, stage by stage.

  The reference computes, from the node features `x`, the edge list `e` and the weights:
    h1 = x · W1,  a1 = A h1,  h2 = relu (a1 + b1) · W2,  a2 = A h2,  out = relu (a2 + b2) · Wl + bl,
  where `A` is the neighbour aggregation — gather the rows of its argument by source node (negative indices wrapped),
  scale row `j` by the edge weight `norm j`, and add each into the row of its destination node. `A` depends on the
  edge list alone, and both of its uses apply the same operations to the same index and weight arrays: it is carried
  here as ONE function `agg e`, never opened. The three dense stages are read entry by entry: a product as the sum
  over `k`, a broadcast bias at its column, the rectifier's zero as the literal, and identified with the stage
  functions of the specification.
-/
import proofs.«136650_j63556926046385_1_alg».proof.Proof.RefRead
import proofs.«136650_j63556926046385_1_alg».proof.Proof.Spec

noncomputable section

namespace Cert.ReferenceIdeal.RefVal

open Cert.ReferenceIdeal Cert.ReferenceIdeal.Gen Cert.ReferenceIdeal.ReadP
open Idealize.ShloMosaic Idealize.ShloMosaic.ValueIdx Cert.Spec

/-- The zero the rectifier compares with. -/
abbrev zr : EReal := Ideal.ofBits .f32 0x00000000#32

section Agg
variable {F : FTy → Type} [FloatOps F]

/-- The neighbour aggregation of an `[N, 128]` array along the edge list `x1`: rows gathered by source node, each
    scaled by its edge weight, added into the destination node's row. -/
def agg (x1 : (⟨S2x1600000, .i32⟩ : BufTy).Contents (Elt F)) (h : (⟨S100000x128, .f32⟩ : BufTy).Contents (Elt F)) : (⟨S100000x128, .f32⟩ : BufTy).Contents (Elt F) :=
  Host.scatterAdd scatter_S100000x128_S1700000x1_S1700000x128_1_0_0_1 (val_main_v41 (F := F)) (val_main_v42 (F := F) x1)
    (mulf (Host.gather gather_S100000x128_S1700000x1_S1700000x128_1_0_n_n_0_1_1128 h (val_main_v36 (F := F) x1)) (val_main_v39 (F := F) x1))

/-- The first aggregation is `agg` of the first product. -/
theorem v43_eq (x0 : (⟨S100000x128, .f32⟩ : BufTy).Contents (Elt F)) (x1 : (⟨S2x1600000, .i32⟩ : BufTy).Contents (Elt F)) (x2 : (⟨S128x128, .f32⟩ : BufTy).Contents (Elt F)) :
    val_main_v43 (F := F) x0 x1 x2 = agg x1 (val_main_v30 (F := F) x0 x2) := rfl

/-- The second aggregation is the same `agg` of the second product: its index and weight arrays are the same
    operations of the edge list. -/
theorem v61_eq (x0 : (⟨S100000x128, .f32⟩ : BufTy).Contents (Elt F)) (x1 : (⟨S2x1600000, .i32⟩ : BufTy).Contents (Elt F)) (x2 : (⟨S128x128, .f32⟩ : BufTy).Contents (Elt F))
    (x3 : (⟨S128, .f32⟩ : BufTy).Contents (Elt F)) (x4 : (⟨S128x128, .f32⟩ : BufTy).Contents (Elt F)) :
    val_main_v61 (F := F) x0 x1 x2 x3 x4 = agg x1 (val_main_v48 (F := F) x0 x1 x2 x3 x4) := rfl

end Agg

/-- The first product is rows times columns. -/
theorem v30_eq (x0 : (⟨S100000x128, .f32⟩ : BufTy).Contents (Elt Ideal)) (x2 : (⟨S128x128, .f32⟩ : BufTy).Contents (Elt Ideal)) :
    val_main_v30 (F := Ideal) x0 x2 = mm (n := 100000) (K := 128) (h := 128) x0 x2 := by
  funext i
  obtain ⟨e, q, rfl⟩ : ∃ (e : Fin 100000) (q : Fin 128), i = ix2 e q := ⟨i 0, i 1, eq_ix2 i⟩
  rw [val_main_v30_apply, mm_apply]
  refine Finset.sum_congr rfl fun k _ => ?_
  have el : lidx_main_v30 (ix2 e q) k = ix2 e k := funext fun a => by match a with | ⟨0, _⟩ => rfl | ⟨1, _⟩ => rfl
  have er : ridx_main_v30 (ix2 e q) k = ix2 k q := funext fun a => by match a with | ⟨0, _⟩ => rfl | ⟨1, _⟩ => rfl
  rw [el, er]

/-- The second product is stage 1 of the first aggregation: the bias vector enters as a one-row matrix. -/
theorem v48_eq (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) :
    val_main_v48 (F := Ideal) x0 x1 x2 x3 x4
      = stage1 (n := 100000) (K := 128) (h := 128) zr (val_main_v43 (F := Ideal) x0 x1 x2) (rowOf x3) x4 := by
  funext i
  obtain ⟨e, q, rfl⟩ : ∃ (e : Fin 100000) (q : Fin 128), i = ix2 e q := ⟨i 0, i 1, eq_ix2 i⟩
  rw [val_main_v48_apply, stage1_apply]
  refine Finset.sum_congr rfl fun k _ => ?_
  have el : lidx_main_v48 (ix2 e q) k = ix2 e k := funext fun a => by match a with | ⟨0, _⟩ => rfl | ⟨1, _⟩ => rfl
  have er : ridx_main_v48 (ix2 e q) k = ix2 k q := funext fun a => by match a with | ⟨0, _⟩ => rfl | ⟨1, _⟩ => rfl
  have ei : idx_main_v44 (idx_main_v45 (ix2 e k)) = ix1 k := funext fun a => by match a with | ⟨0, _⟩ => rfl
  rw [el, er, val_main_v47_apply, val_main_v46_apply, val_main_call1_v0_apply, val_main_call1_cst_apply,
    val_main_v45_apply, val_main_v44_apply, ei, rowOf_apply]
  rfl

/-- The result is stage 2 of the second aggregation, with a one-column factor and a one-entry bias. -/
theorem v69_eq (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal))
    (x5 : (⟨S128, .f32⟩ : BufTy).Contents (Elt Ideal)) (x6 : (⟨S128x1, .f32⟩ : BufTy).Contents (Elt Ideal))
    (x7 : (⟨S1, .f32⟩ : BufTy).Contents (Elt Ideal)) :
    val_main_v69 (F := Ideal) x0 x1 x2 x3 x4 x5 x6 x7
      = stage2 (n := 100000) (K := 128) (h := 1) zr (val_main_v61 (F := Ideal) x0 x1 x2 x3 x4) (rowOf x5) x6 (rowOf x7) := by
  funext i
  obtain ⟨e, q, rfl⟩ : ∃ (e : Fin 100000) (q : Fin 1), i = ix2 e q := ⟨i 0, i 1, eq_ix2 i⟩
  have hq : q = 0 := Subsingleton.elim _ _
  subst hq
  rw [val_main_v69_apply, val_main_v66_apply, val_main_v68_apply, val_main_v67_apply, stage2_apply]
  have e7 : idx_main_v67 (idx_main_v68 (ix2 e (0 : Fin 1))) = ix1 (0 : Fin 1) := funext fun a => by match a with | ⟨0, _⟩ => rfl
  rw [e7, rowOf_apply]
  refine congrArg (· + x7 (ix1 (0 : Fin 1))) ?_
  refine Finset.sum_congr rfl fun k _ => ?_
  have el : lidx_main_v66 (ix2 e (0 : Fin 1)) k = ix2 e k := funext fun a => by match a with | ⟨0, _⟩ => rfl | ⟨1, _⟩ => rfl
  have er : ridx_main_v66 (ix2 e (0 : Fin 1)) k = ix2 k (0 : Fin 1) := funext fun a => by match a with | ⟨0, _⟩ => rfl | ⟨1, _⟩ => rfl
  have ei : idx_main_v62 (idx_main_v63 (ix2 e k)) = ix1 k := funext fun a => by match a with | ⟨0, _⟩ => rfl
  rw [el, er, val_main_v65_apply, val_main_v64_apply, val_main_call2_v0_apply, val_main_call2_cst_apply,
    val_main_v63_apply, val_main_v62_apply, ei, rowOf_apply]
  rfl

end Cert.ReferenceIdeal.RefVal

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.Payloads.lean ====
/-
  What each kernel body stores, read at an entry.

  The three bodies load their whole blocks, compute, and store one whole block. Read at entry `(e, q)` of the stored
  block, at the exact extended-real values (where rounding to a narrower format is the identity and a product into a
  zero accumulator is the plain sum):
    * body 0:  the sum over `k` of `x (e, k) · w (k, q)`;
    * body 1:  the sum over `k` of `max (a (e, k) + b (0, k)) 0 · w (k, q)`  (the one-row bias is broadcast down the
      rows before the sum, the zero is the literal the body splats);
    * body 2:  body 1's sum plus `β (0, q)`.
  The contraction's dimension numbers enter through four facts: the product reads the left factor at
  `(row of the output, k)` and the right factor at `(k, column of the output)`.
-/
import proofs.«136650_j63556926046385_1_alg».proof.Proof.Gen.KernelIdeal.Skeleton
import proofs.«136650_j63556926046385_1_alg».proof.Proof.LibDense
import Idealize.ShloMosaic.Lib.Pipeline.Value
import Idealize.ShloMosaic.Lib.ValueLayout

noncomputable section

namespace Cert.KernelIdeal.Val

open Cert.KernelIdeal Cert.KernelIdeal.Gen Idealize.ShloMosaic Idealize.ShloMosaic.ValueIdx

/-! ## Where the block product reads its factors -/

theorem dotK_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dotK_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dotK_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dotK_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The zero the bodies splat before taking the maximum. -/
abbrev zr : EReal := Ideal.ofBits .f32 0x00000000#32

/-! ## The stored values at an entry -/

/-- Body 0 stores the block product. -/
theorem pay0_apply (x0 : Vec Ideal S5000x128 .f32) (x1 : Vec Ideal S128x128 .f32) (e : Fin 5000) (q : Fin 128) :
    k0_pay1 (F := Ideal) x0 x1 (ix2 e q) = ∑ k : Fin 128, x0 (ix2 e k) * x1 (ix2 k q) := by
  unfold k0_pay1
  exact matmul_zero_plain_apply dot_S5000x128_S128x128_S5000x128_1_0_0_1_n_n none rfl rfl dotK_l0 dotK_l1 dotK_r0 dotK_r1 _ _ e q

/-- The biased, rectified block at `(e, k)`: the block's entry plus the bias row's entry `k`, or zero if that is larger. -/
theorem act_apply (x0 : Vec Ideal S5000x128 .f32) (x1 : Vec Ideal S1x128 .f32) (e : Fin 5000) (k : Fin 128) :
    maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)) (ix2 e k)
    = max (x0 (ix2 e k) + x1 (ix2 (0 : Fin 1) k)) zr := by
  rw [maximumf_apply, addf_apply, broadcast_apply, shapeCast_self, shapeCast_self, broadcastTo_1b_ab_apply]
  rfl

/-- Body 1 stores the product of the biased, rectified block with the weights. -/
theorem pay1_apply (x0 : Vec Ideal S5000x128 .f32) (x1 : Vec Ideal S1x128 .f32) (x2 : Vec Ideal S128x128 .f32)
    (e : Fin 5000) (q : Fin 128) :
    k1_pay1 (F := Ideal) x0 x1 x2 (ix2 e q)
      = ∑ k : Fin 128, max (x0 (ix2 e k) + x1 (ix2 (0 : Fin 1) k)) zr * x2 (ix2 k q) := by
  unfold k1_pay1
  refine (matmul_zero_plain_apply dot_S5000x128_S128x128_S5000x128_1_0_0_1_n_n none rfl rfl dotK_l0 dotK_l1 dotK_r0 dotK_r1 _ _ e q).trans ?_
  refine Finset.sum_congr rfl fun k _ => ?_
  exact congrArg (· * x2 (ix2 k q)) (act_apply x0 x1 e k)

/-- Body 2 stores that product plus the second bias row's entry `q`. -/
theorem pay2_apply (x0 : Vec Ideal S5000x128 .f32) (x1 : Vec Ideal S1x128 .f32) (x2 : Vec Ideal S128x128 .f32)
    (x3 : Vec Ideal S1x128 .f32) (e : Fin 5000) (q : Fin 128) :
    k2_pay1 (F := Ideal) x0 x1 x2 x3 (ix2 e q)
      = (∑ k : Fin 128, max (x0 (ix2 e k) + x1 (ix2 (0 : Fin 1) k)) zr * x2 (ix2 k q)) + x3 (ix2 (0 : Fin 1) q) := by
  unfold k2_pay1
  rw [addf_apply, broadcastTo_1b_ab_apply, shapeCast_self x3, shapeCast_self x2]
  refine congrArg (· + x3 (ix2 (0 : Fin 1) q)) ?_
  refine (matmul_zero_plain_apply dot_S5000x128_S128x128_S5000x128_1_0_0_1_n_n none rfl rfl dotK_l0 dotK_l1 dotK_r0 dotK_r1 _ _ e q).trans ?_
  refine Finset.sum_congr rfl fun k _ => ?_
  exact congrArg (· * x2 (ix2 k q)) (act_apply x0 x1 e k)

end Cert.KernelIdeal.Val

end
-- ==== Proof.Region0.lean ====
/-
  The first grid's array: the whole product `x · W1`.

  The grid has 20 points; point `t` reads rows `5000 t … 5000 t + 4999` of the left factor and the whole right factor,
  and writes back the same rows of the result. Entry `(e, q)` of the block it writes is the sum over `k` of
  `x (5000 t + e, k) · W (k, q)`, which is entry `(5000 t + e, q)` of the whole product: a row of a product depends on
  that row of the left factor alone. Row `r` of the array lies in the block of point `r / 5000`, so the blocks
  cover the array and it ends holding the whole product.
-/
import proofs.«136650_j63556926046385_1_alg».proof.Proof.Gen.KernelIdeal.Frame
import proofs.«136650_j63556926046385_1_alg».proof.Proof.Payloads
import proofs.«136650_j63556926046385_1_alg».proof.Proof.Spec
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the 20 points: the left factor's and the result's blocks move together down the
    rows, everything else stays at block 0. -/
theorem idx0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block is some point's. -/
theorem onto0 : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of the whole product. -/
theorem flushed0_eq (c : Dev nD) (t : Fin cfg0.N) :
    (dat0 V c).flushed 2 t = ((cfg0.win 2).blk t).view.read (Elt Ideal)
      (Cert.Spec.mm (n := 100000) (K := 128) (h := 128) (V c main_arg0) (V c main_arg2)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  obtain ⟨e0, e1, e2, e3, e4, e5⟩ := idx0 t
  funext j
  obtain ⟨p, q, rfl⟩ : ∃ (p : Fin 5000) (q : Fin 128), j = ix2 p q := ⟨j 0, j 1, eq_ix2 j⟩
  have hp : p.val < 5000 := p.isLt
  refine (pay0_apply (iblk0 V c 0 t) (iblk0 V c 1 t) p q).trans ?_
  have hi : (((cfg0.win 2).blk t).view.emb (ix2 p q) : S100000x128.Idx)
      = ix2 (⟨win0_2.index t (0 : Fin 2) * 5000 + p.val, by omega⟩ : Fin 100000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  show _ = Cert.Spec.mm (n := 100000) (K := 128) (h := 128) (V c main_arg0) (V c main_arg2)
    (((cfg0.win 2).blk t).view.emb (ix2 p q))
  rw [hi, Cert.Spec.mm_apply]
  refine Finset.sum_congr rfl fun k _ => ?_
  have h0 : (((cfg0.win 0).blk t).view.emb (ix2 p k) : S100000x128.Idx)
      = ix2 (⟨win0_2.index t (0 : Fin 2) * 5000 + p.val, by omega⟩ : Fin 100000) k := by
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  have h1 : (((cfg0.win 1).blk t).view.emb (ix2 k q) : S128x128.Idx) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have f0 : iblk0 V c 0 t (ix2 p k)
      = V c main_arg0 (ix2 (⟨win0_2.index t (0 : Fin 2) * 5000 + p.val, by omega⟩ : Fin 100000) k) := by
    show V c main_arg0 (((cfg0.win 0).blk t).view.emb (ix2 p k)) = _
    rw [h0]
  have f1 : iblk0 V c 1 t (ix2 k q) = V c main_arg2 (ix2 k q) := by
    show V c main_arg2 (((cfg0.win 1).blk t).view.emb (ix2 k q)) = _
    rw [h1]
  rw [f0, f1]

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` is in the block of point `r / 5000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array after the first grid is the whole product of the two arrays the grid found. -/
theorem final0 (c : Dev nD) : (dat0 V c).arrAt 2 cfg0.N
    = Cert.Spec.mm (n := 100000) (K := 128) (h := 128) (V c main_arg0) (V c main_arg2) :=
  (dat0 V c).arrAt_eq_of_cover 2 _ (fun t _ => flushed0_eq V c t) cover0

end Cert.KernelIdeal.Val

end
-- ==== Proof.Region1.lean ====
/-
  The second grid's array: `relu (a + b) · W2`, `a` the first aggregation and `b` the first bias as a one-row matrix.

  As for the first grid: point `t` of the 20 reads rows `5000 t … 5000 t + 4999` of `a` and the whole of the other
  operands, and writes back those rows of the result. Entry `(e, q)` of what it writes is the specification's entry
  `(5000 t + e, q)`, because that entry depends on row `5000 t + e` of `a` alone; row `r` lies in the block of point
  `r / 5000`, so the blocks cover the array.
-/
import proofs.«136650_j63556926046385_1_alg».proof.Proof.Gen.KernelIdeal.Frame
import proofs.«136650_j63556926046385_1_alg».proof.Proof.Payloads
import proofs.«136650_j63556926046385_1_alg».proof.Proof.Spec
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the 20 points: the row-blocked operand and the result move together down the rows,
    every other block index is 0. -/
theorem idx1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 19 :=
  (by decide +kernel : ∀ t : Fin grid1.N, _)

/-- Every row block is some point's. -/
theorem onto1 : ∀ q0 : Fin 20, ∃ t : Fin cfg1.N, win1_3.index t = ![q0.val, 0] :=
  (by decide +kernel : ∀ q0 : Fin 20, ∃ t : Fin grid1.N, win1_3.index t = ![q0.val, 0])

/-- What point `t` writes back is block `t` of the stage's whole-array function. -/
theorem flushed1_eq (c : Dev nD) (t : Fin cfg1.N) :
    (dat1 V c).flushed 3 t = ((cfg1.win 3).blk t).view.read (Elt Ideal)
      (Cert.Spec.stage1 (n := 100000) (K := 128) (h := 128) zr (V c main_v43) (V c main_v44) (V c main_arg4)) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S1x128) hz1, View.ld_unit_zero (S := S128x128) hz1]
  obtain ⟨e0, e1, e2, e3, e4, e5, e6, e7⟩ := idx1 t
  funext j
  obtain ⟨p, q, rfl⟩ : ∃ (p : Fin 5000) (q : Fin 128), j = ix2 p q := ⟨j 0, j 1, eq_ix2 j⟩
  have hp : p.val < 5000 := p.isLt
  refine (pay1_apply (iblk1 V c 0 t) (iblk1 V c 1 t) (iblk1 V c 2 t) p q).trans ?_
  have hi : (((cfg1.win 3).blk t).view.emb (ix2 p q) : S100000x128.Idx)
      = ix2 (⟨win1_3.index t (0 : Fin 2) * 5000 + p.val, by omega⟩ : Fin 100000) q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 128 + 1 * q.val = q.val; omega
  show _ = Cert.Spec.stage1 (n := 100000) (K := 128) (h := 128) zr (V c main_v43) (V c main_v44) (V c main_arg4)
    (((cfg1.win 3).blk t).view.emb (ix2 p q))
  rw [hi, Cert.Spec.stage1_apply]
  refine Finset.sum_congr rfl fun k _ => ?_
  have h0 : (((cfg1.win 0).blk t).view.emb (ix2 p k) : S100000x128.Idx)
      = ix2 (⟨win1_3.index t (0 : Fin 2) * 5000 + p.val, by omega⟩ : Fin 100000) k := by
    funext a; apply Fin.ext
    match a with
    | ⟨0, _⟩ => show win1_0.index t (0 : Fin 2) * 5000 + 1 * p.val = win1_3.index t (0 : Fin 2) * 5000 + p.val; omega
    | ⟨1, _⟩ => show win1_0.index t (1 : Fin 2) * 128 + 1 * k.val = k.val; omega
  have h1 : (((cfg1.win 1).blk t).view.emb (ix2 (0 : Fin 1) k) : S1x128.Idx) = ix2 (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : (((cfg1.win 2).blk t).view.emb (ix2 k q) : S128x128.Idx) = ix2 k q := by
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  have f0 : iblk1 V c 0 t (ix2 p k)
      = V c main_v43 (ix2 (⟨win1_3.index t (0 : Fin 2) * 5000 + p.val, by omega⟩ : Fin 100000) k) := by
    show V c main_v43 (((cfg1.win 0).blk t).view.emb (ix2 p k)) = _
    rw [h0]
  have f1 : iblk1 V c 1 t (ix2 (0 : Fin 1) k) = V c main_v44 (ix2 (0 : Fin 1) k) := by
    show V c main_v44 (((cfg1.win 1).blk t).view.emb (ix2 (0 : Fin 1) k)) = _
    rw [h1]
  have f2 : iblk1 V c 2 t (ix2 k q) = V c main_arg4 (ix2 k q) := by
    show V c main_arg4 (((cfg1.win 2).blk t).view.emb (ix2 k q)) = _
    rw [h2]
  rw [f0, f1, f2]

/-- An index of the array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Row `r` is in the block of point `r / 5000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The array after the grid is the stage's function of the arrays the grid found. -/
theorem final1 (c : Dev nD) : (dat1 V c).arrAt 3 cfg1.N
    = Cert.Spec.stage1 (n := 100000) (K := 128) (h := 128) zr (V c main_v43) (V c main_v44) (V c main_arg4) :=
  (dat1 V c).arrAt_eq_of_cover 3 _ (fun t _ => flushed1_eq V c t) cover1

end Cert.KernelIdeal.Val

end
-- ==== Proof.Region2.lean ====
/-
  The third grid's array: `relu (a + b) · W + β`, `a` the second aggregation, `b` the second bias as a one-row
  matrix, `W` the 128-column factor and `β` the 128-entry row the program built before the grid.

  As for the first grid: point `t` of the 20 reads rows `5000 t … 5000 t + 4999` of `a` and the whole of the other
  operands, and writes back those rows of the result. Entry `(e, q)` of what it writes is the specification's entry
  `(5000 t + e, q)`, because that entry depends on row `5000 t + e` of `a` alone; row `r` lies in the block of point
  `r / 5000`, so the blocks cover the array.
-/
import proofs.«136650_j63556926046385_1_alg».proof.Proof.Gen.KernelIdeal.Frame
import proofs.«136650_j63556926046385_1_alg».proof.Proof.Payloads
import proofs.«136650_j63556926046385_1_alg».proof.Proof.Spec
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the 20 points: the row-blocked operand and the result move together down the rows,
    every other block index is 0. -/
theorem idx2 : ∀ t : Fin cfg2.N, win2_0.index t (0 : Fin 2) = win2_4.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (1 : Fin 2) = 0
    ∧ win2_4.index t (0 : Fin 2) ≤ 19 :=
  (by decide +kernel : ∀ t : Fin grid2.N, _)

/-- Every row block is some point's. -/
theorem onto2 : ∀ q0 : Fin 20, ∃ t : Fin cfg2.N, win2_4.index t = ![q0.val, 0] :=
  (by decide +kernel : ∀ q0 : Fin 20, ∃ t : Fin grid2.N, win2_4.index t = ![q0.val, 0])

/-- What point `t` writes back is block `t` of the stage's whole-array function. -/
theorem flushed2_eq (c : Dev nD) (t : Fin cfg2.N) :
    (dat2 V c).flushed 4 t = ((cfg2.win 4).blk t).view.read (Elt Ideal)
      (Cert.Spec.stage2 (n := 100000) (K := 128) (h := 128) zr (V c main_v58) (V c main_v65) (V c main_v61) (V c main_v66)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S1x128) hz2, View.ld_unit_zero (S := S128x128) hz2]
  obtain ⟨e0, e1, e2, e3, e4, e5, e6, e7, e8, e9⟩ := idx2 t
  funext j
  obtain ⟨p, q, rfl⟩ : ∃ (p : Fin 5000) (q : Fin 128), j = ix2 p q := ⟨j 0, j 1, eq_ix2 j⟩
  have hp : p.val < 5000 := p.isLt
  refine (pay2_apply (iblk2 V c 0 t) (iblk2 V c 1 t) (iblk2 V c 2 t) (iblk2 V c 3 t) p q).trans ?_
  have hi : (((cfg2.win 4).blk t).view.emb (ix2 p q) : S100000x128.Idx)
      = ix2 (⟨win2_4.index t (0 : Fin 2) * 5000 + p.val, by omega⟩ : Fin 100000) q := by
    funext a; apply Fin.ext
    match a with
    | ⟨0, _⟩ => show win2_4.index t (0 : Fin 2) * 5000 + 1 * p.val = win2_4.index t (0 : Fin 2) * 5000 + p.val; omega
    | ⟨1, _⟩ => show win2_4.index t (1 : Fin 2) * 128 + 1 * q.val = q.val; omega
  show _ = Cert.Spec.stage2 (n := 100000) (K := 128) (h := 128) zr (V c main_v58) (V c main_v65) (V c main_v61) (V c main_v66)
    (((cfg2.win 4).blk t).view.emb (ix2 p q))
  rw [hi, Cert.Spec.stage2_apply]
  have h3 : (((cfg2.win 3).blk t).view.emb (ix2 (0 : Fin 1) q) : S1x128.Idx) = ix2 (0 : Fin 1) q := by
    funext a; apply Fin.ext
    match a with
    | ⟨0, _⟩ => show win2_3.index t (0 : Fin 2) * 1 + 1 * 0 = 0; omega
    | ⟨1, _⟩ => show win2_3.index t (1 : Fin 2) * 128 + 1 * q.val = q.val; omega
  have f3 : iblk2 V c 3 t (ix2 (0 : Fin 1) q) = V c main_v66 (ix2 (0 : Fin 1) q) := by
    show V c main_v66 (((cfg2.win 3).blk t).view.emb (ix2 (0 : Fin 1) q)) = _
    rw [h3]
  rw [f3]
  refine congrArg (· + V c main_v66 (ix2 (0 : Fin 1) q)) ?_
  refine Finset.sum_congr rfl fun k _ => ?_
  have h0 : (((cfg2.win 0).blk t).view.emb (ix2 p k) : S100000x128.Idx)
      = ix2 (⟨win2_4.index t (0 : Fin 2) * 5000 + p.val, by omega⟩ : Fin 100000) k := by
    funext a; apply Fin.ext
    match a with
    | ⟨0, _⟩ => show win2_0.index t (0 : Fin 2) * 5000 + 1 * p.val = win2_4.index t (0 : Fin 2) * 5000 + p.val; omega
    | ⟨1, _⟩ => show win2_0.index t (1 : Fin 2) * 128 + 1 * k.val = k.val; omega
  have h1 : (((cfg2.win 1).blk t).view.emb (ix2 (0 : Fin 1) k) : S1x128.Idx) = ix2 (0 : Fin 1) k := by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have h2 : (((cfg2.win 2).blk t).view.emb (ix2 k q) : S128x128.Idx) = ix2 k q := by
    funext a; apply Fin.ext
    match a with
    | ⟨0, _⟩ => show win2_2.index t (0 : Fin 2) * 128 + 1 * k.val = k.val; omega
    | ⟨1, _⟩ => show win2_2.index t (1 : Fin 2) * 128 + 1 * q.val = q.val; omega
  have f0 : iblk2 V c 0 t (ix2 p k)
      = V c main_v58 (ix2 (⟨win2_4.index t (0 : Fin 2) * 5000 + p.val, by omega⟩ : Fin 100000) k) := by
    show V c main_v58 (((cfg2.win 0).blk t).view.emb (ix2 p k)) = _
    rw [h0]
  have f1 : iblk2 V c 1 t (ix2 (0 : Fin 1) k) = V c main_v65 (ix2 (0 : Fin 1) k) := by
    show V c main_v65 (((cfg2.win 1).blk t).view.emb (ix2 (0 : Fin 1) k)) = _
    rw [h1]
  have f2 : iblk2 V c 2 t (ix2 k q) = V c main_v61 (ix2 k q) := by
    show V c main_v61 (((cfg2.win 2).blk t).view.emb (ix2 k q)) = _
    rw [h2]
  rw [f0, f1, f2]

/-- An index of the array is in point `t`'s block iff each coordinate is in the block's range on its axis. -/
theorem mem_blk2 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v67).slice (win2_4.rect t)).set ↔ _
  rw [View.set_slice_whole, Rect.mem_set_unit]
  exact Iff.rfl

/-- Row `r` is in the block of point `r / 5000`. -/
theorem cover2 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, ht⟩ := onto2 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The array after the grid is the stage's function of the arrays the grid found. -/
theorem final2 (c : Dev nD) : (dat2 V c).arrAt 4 cfg2.N
    = Cert.Spec.stage2 (n := 100000) (K := 128) (h := 128) zr (V c main_v58) (V c main_v65) (V c main_v61) (V c main_v66) :=
  (dat2 V c).arrAt_eq_of_cover 4 _ (fun t _ => flushed2_eq V c t) cover2

end Cert.KernelIdeal.Val

end
-- ==== Proof.Walk.lean ====
/-
  The result, walked back through @main's nine segments to the arguments.

  The contents of the buffers at the segment boundaries are a fold (`W0` the launch memory, `W1 … W3` after the three
  stretches of host operations before the first grid, `W4` after that grid, `W5` after the next stretch, `W6` after the
  second grid, `W7`, `W8` after the third grid, `W9` after the final slice). Reading the fold at a buffer is either
  the writing operation's function of its operands one boundary earlier, or — when nothing in the segment writes the
  buffer — the same buffer one boundary earlier. Level by level:
    * at `W3`: the arguments as launched; the source and destination index arrays and the edge weights as the
      reference's own stages of the edge list (the two programs apply the same operations to it);
    * at `W4`: the first grid's array is `x · W1` (Region0); everything else as at `W3`;
    * at `W5`: the aggregation of that array — the same function `agg` the reference applies; the first bias as a
      one-row matrix;
    * at `W6`: the second grid's array is stage 1 (Region1);
    * at `W7`: the aggregation again; the second bias as a row; the last factor written into column 0 of a zero
      128-column matrix and the last bias into entry 0 of a zero 128-entry row;
    * at `W8`: the third grid's array is stage 2 (Region2); at `W9`: its column 0.
-/
import proofs.«136650_j63556926046385_1_alg».proof.Proof.Gen.KernelIdeal.Frame
import proofs.«136650_j63556926046385_1_alg».proof.Proof.RefValue
import proofs.«136650_j63556926046385_1_alg».proof.Proof.Region0
import proofs.«136650_j63556926046385_1_alg».proof.Proof.Region1
import proofs.«136650_j63556926046385_1_alg».proof.Proof.Region2
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo Idealize.ShloMosaic.ValueIdx
open Cert.ReferenceIdeal.ReadP (val_main_v3 val_main_v6 val_main_v29 val_main_v12 val_main_v13 val_main_v14 val_main_cst_2)
open Cert.ReferenceIdeal.RefVal (agg)

variable (m : (ℓ : Loc nD τ sig) → Buf (Elt Ideal) ℓ) (ρ : Dev nD → PrngReg)

/-- Reads the fold of a stretch of host operations at a buffer: the writing operation's function of its operands
    before the stretch, or the buffer itself before the stretch when no operation writes it. -/
macro "walk" : tactic =>
  `(tactic| (dsimp only [W1, W2, W3, W5, W7, W9, hostOps0, hostOps0_1, hostOps0_2, hostOps1, hostOps2, hostOps3]
             after_results_simp))

/-! ## Before the first grid -/

theorem W3_arg0 (c : Dev nD) : W3 m ρ c (Proc.devRef .tc main_arg0) = (m ((c : Thread nD τ).loc main_arg0)) := by
  walk <;> rfl
theorem W3_arg2 (c : Dev nD) : W3 m ρ c (Proc.devRef .tc main_arg2) = (m ((c : Thread nD τ).loc main_arg2)) := by
  walk <;> rfl
theorem W3_arg3 (c : Dev nD) : W3 m ρ c (Proc.devRef .tc main_arg3) = (m ((c : Thread nD τ).loc main_arg3)) := by
  walk <;> rfl
theorem W3_arg4 (c : Dev nD) : W3 m ρ c (Proc.devRef .tc main_arg4) = (m ((c : Thread nD τ).loc main_arg4)) := by
  walk <;> rfl
theorem W3_arg5 (c : Dev nD) : W3 m ρ c (Proc.devRef .tc main_arg5) = (m ((c : Thread nD τ).loc main_arg5)) := by
  walk <;> rfl
theorem W3_arg6 (c : Dev nD) : W3 m ρ c (Proc.devRef .tc main_arg6) = (m ((c : Thread nD τ).loc main_arg6)) := by
  walk <;> rfl
theorem W3_arg7 (c : Dev nD) : W3 m ρ c (Proc.devRef .tc main_arg7) = (m ((c : Thread nD τ).loc main_arg7)) := by
  walk <;> rfl

/-- The source-node index array is the reference's. -/
theorem W3_v3 (c : Dev nD) : W3 m ρ c (Proc.devRef .tc main_v3) = val_main_v3 (F := Ideal) (m ((c : Thread nD τ).loc main_arg1)) := by
  walk <;> rfl
/-- The destination-node index array is the reference's. -/
theorem W3_v6 (c : Dev nD) : W3 m ρ c (Proc.devRef .tc main_v6) = val_main_v6 (F := Ideal) (m ((c : Thread nD τ).loc main_arg1)) := by
  walk <;> rfl
/-- Whether a node's degree is positive: the reference's comparison. -/
theorem W1_v12 (c : Dev nD) : W1 m ρ c (Proc.devRef .tc main_v12) = val_main_v12 (F := Ideal) (m ((c : Thread nD τ).loc main_arg1)) := by
  walk <;> rfl
/-- The reciprocal square root of the degrees: the reference's. -/
theorem W1_v13 (c : Dev nD) : W1 m ρ c (Proc.devRef .tc main_v13) = val_main_v13 (F := Ideal) (m ((c : Thread nD τ).loc main_arg1)) := by
  walk <;> rfl
theorem W1_cst_2 (c : Dev nD) : W1 m ρ c (Proc.devRef .tc main_cst_2) = val_main_cst_2 (F := Ideal) := by
  walk <;> rfl
theorem W1_v3 (c : Dev nD) : W1 m ρ c (Proc.devRef .tc main_v3) = val_main_v3 (F := Ideal) (m ((c : Thread nD τ).loc main_arg1)) := by
  walk <;> rfl
theorem W1_v6 (c : Dev nD) : W1 m ρ c (Proc.devRef .tc main_v6) = val_main_v6 (F := Ideal) (m ((c : Thread nD τ).loc main_arg1)) := by
  walk <;> rfl

/-- The `where` of the degree normalisation, over any contents before it: the reciprocal square root where the
    comparison holds, the splat of the zero elsewhere. -/
theorem where_step (U : Valuation τ sig (Elt Ideal)) :
    StableHlo.after (hostOps0_1 (F := Ideal)) U (Proc.devRef .tc main_v14)
      = select (U (Proc.devRef .tc main_v12)) (U (Proc.devRef .tc main_v13))
          (broadcastInDim S100000 ![] bcast_S_S100000 (U (Proc.devRef .tc main_cst_2))) := by
  dsimp only [hostOps0_1]
  after_results_simp
  rfl

/-- The degree's reciprocal square root where the degree is positive, zero elsewhere: the reference's. -/
theorem W2_v14 (c : Dev nD) : W2 m ρ c (Proc.devRef .tc main_v14) = val_main_v14 (F := Ideal) (m ((c : Thread nD τ).loc main_arg1)) := by
  dsimp only [W2]
  rw [where_step, W1_v12, W1_v13, W1_cst_2]
  rfl
theorem W2_v3 (c : Dev nD) : W2 m ρ c (Proc.devRef .tc main_v3) = val_main_v3 (F := Ideal) (m ((c : Thread nD τ).loc main_arg1)) := by
  dsimp only [W2]
  generalize hU : W1 m ρ c = U
  dsimp only [hostOps0_1]
  after_results_simp
  subst hU
  exact W1_v3 m ρ c
theorem W2_v6 (c : Dev nD) : W2 m ρ c (Proc.devRef .tc main_v6) = val_main_v6 (F := Ideal) (m ((c : Thread nD τ).loc main_arg1)) := by
  dsimp only [W2]
  generalize hU : W1 m ρ c = U
  dsimp only [hostOps0_1]
  after_results_simp
  subst hU
  exact W1_v6 m ρ c

/-- The edge weights — the product of the two endpoints' factors — are the reference's. -/
theorem W3_v29 (c : Dev nD) : W3 m ρ c (Proc.devRef .tc main_v29) = val_main_v29 (F := Ideal) (m ((c : Thread nD τ).loc main_arg1)) := by
  dsimp only [W3]
  generalize hU : W2 m ρ c = U
  dsimp only [hostOps0_2]
  after_results_simp
  subst hU
  rw [W2_v14, W2_v3, W2_v6]
  rfl

/-! ## After the first grid -/

/-- The first grid's array is the whole product of the launched `x` and `W1`. -/
theorem W4_v30 (c : Dev nD) : W4 m ρ c (Proc.devRef .tc main_v30) = (Cert.Spec.mm (n := 100000) (K := 128) (h := 128) (m ((c : Thread nD τ).loc main_arg0)) (m ((c : Thread nD τ).loc main_arg2))) := by
  refine (W4_arr m ρ c 2).trans ?_
  rw [final0 (V3 m ρ) c]
  show Cert.Spec.mm (n := 100000) (K := 128) (h := 128) (W3 m ρ c (Proc.devRef .tc main_arg0)) (W3 m ρ c (Proc.devRef .tc main_arg2)) = _
  rw [W3_arg0, W3_arg2]

theorem W4_v3 (c : Dev nD) : W4 m ρ c (Proc.devRef .tc main_v3) = (val_main_v3 (F := Ideal) (m ((c : Thread nD τ).loc main_arg1))) := by
  rw [W4_of_ne m ρ c main_v3 (by decide), W3_v3]
theorem W4_v6 (c : Dev nD) : W4 m ρ c (Proc.devRef .tc main_v6) = (val_main_v6 (F := Ideal) (m ((c : Thread nD τ).loc main_arg1))) := by
  rw [W4_of_ne m ρ c main_v6 (by decide), W3_v6]
theorem W4_v29 (c : Dev nD) : W4 m ρ c (Proc.devRef .tc main_v29) = (val_main_v29 (F := Ideal) (m ((c : Thread nD τ).loc main_arg1))) := by
  rw [W4_of_ne m ρ c main_v29 (by decide), W3_v29]
theorem W4_arg3 (c : Dev nD) : W4 m ρ c (Proc.devRef .tc main_arg3) = (m ((c : Thread nD τ).loc main_arg3)) := by
  rw [W4_of_ne m ρ c main_arg3 (by decide), W3_arg3]
theorem W4_arg4 (c : Dev nD) : W4 m ρ c (Proc.devRef .tc main_arg4) = (m ((c : Thread nD τ).loc main_arg4)) := by
  rw [W4_of_ne m ρ c main_arg4 (by decide), W3_arg4]
theorem W4_arg5 (c : Dev nD) : W4 m ρ c (Proc.devRef .tc main_arg5) = (m ((c : Thread nD τ).loc main_arg5)) := by
  rw [W4_of_ne m ρ c main_arg5 (by decide), W3_arg5]
theorem W4_arg6 (c : Dev nD) : W4 m ρ c (Proc.devRef .tc main_arg6) = (m ((c : Thread nD τ).loc main_arg6)) := by
  rw [W4_of_ne m ρ c main_arg6 (by decide), W3_arg6]
theorem W4_arg7 (c : Dev nD) : W4 m ρ c (Proc.devRef .tc main_arg7) = (m ((c : Thread nD τ).loc main_arg7)) := by
  rw [W4_of_ne m ρ c main_arg7 (by decide), W3_arg7]

/-! ## Before the second grid -/

/-- The first aggregation: the reference's `agg` of the first product. -/
theorem W5_v43 (c : Dev nD) : W5 m ρ c (Proc.devRef .tc main_v43) = (agg (m ((c : Thread nD τ).loc main_arg1)) (Cert.Spec.mm (n := 100000) (K := 128) (h := 128) (m ((c : Thread nD τ).loc main_arg0)) (m ((c : Thread nD τ).loc main_arg2)))) := by
  walk
  rw [W4_v3, W4_v6, W4_v29, W4_v30]
  rfl

/-- The first bias, as a one-row matrix. -/
theorem W5_v44 (c : Dev nD) : W5 m ρ c (Proc.devRef .tc main_v44) = (shapeCast S1x128 (m ((c : Thread nD τ).loc main_arg3)) shapeCasts_S128_S1x128) := by
  walk
  rw [W4_arg3]
  rfl

theorem W5_v3 (c : Dev nD) : W5 m ρ c (Proc.devRef .tc main_v3) = (val_main_v3 (F := Ideal) (m ((c : Thread nD τ).loc main_arg1))) := by
  walk
  rw [W4_v3]
theorem W5_v6 (c : Dev nD) : W5 m ρ c (Proc.devRef .tc main_v6) = (val_main_v6 (F := Ideal) (m ((c : Thread nD τ).loc main_arg1))) := by
  walk
  rw [W4_v6]
theorem W5_v29 (c : Dev nD) : W5 m ρ c (Proc.devRef .tc main_v29) = (val_main_v29 (F := Ideal) (m ((c : Thread nD τ).loc main_arg1))) := by
  walk
  rw [W4_v29]
theorem W5_arg4 (c : Dev nD) : W5 m ρ c (Proc.devRef .tc main_arg4) = (m ((c : Thread nD τ).loc main_arg4)) := by
  walk
  rw [W4_arg4]
theorem W5_arg5 (c : Dev nD) : W5 m ρ c (Proc.devRef .tc main_arg5) = (m ((c : Thread nD τ).loc main_arg5)) := by
  walk
  rw [W4_arg5]
theorem W5_arg6 (c : Dev nD) : W5 m ρ c (Proc.devRef .tc main_arg6) = (m ((c : Thread nD τ).loc main_arg6)) := by
  walk
  rw [W4_arg6]
theorem W5_arg7 (c : Dev nD) : W5 m ρ c (Proc.devRef .tc main_arg7) = (m ((c : Thread nD τ).loc main_arg7)) := by
  walk
  rw [W4_arg7]

/-! ## After the second grid -/

/-- The second grid's array is stage 1 of the first aggregation. -/
theorem W6_v45 (c : Dev nD) : W6 m ρ c (Proc.devRef .tc main_v45) = (Cert.Spec.stage1 (n := 100000) (K := 128) (h := 128) zr (agg (m ((c : Thread nD τ).loc main_arg1)) (Cert.Spec.mm (n := 100000) (K := 128) (h := 128) (m ((c : Thread nD τ).loc main_arg0)) (m ((c : Thread nD τ).loc main_arg2)))) (shapeCast S1x128 (m ((c : Thread nD τ).loc main_arg3)) shapeCasts_S128_S1x128) (m ((c : Thread nD τ).loc main_arg4))) := by
  refine (W6_arr m ρ c 3).trans ?_
  rw [final1 (V5 m ρ) c]
  show Cert.Spec.stage1 (n := 100000) (K := 128) (h := 128) zr (W5 m ρ c (Proc.devRef .tc main_v43)) (W5 m ρ c (Proc.devRef .tc main_v44)) (W5 m ρ c (Proc.devRef .tc main_arg4)) = _
  rw [W5_v43, W5_v44, W5_arg4]

theorem W6_v3 (c : Dev nD) : W6 m ρ c (Proc.devRef .tc main_v3) = (val_main_v3 (F := Ideal) (m ((c : Thread nD τ).loc main_arg1))) := by
  rw [W6_of_ne m ρ c main_v3 (by decide), W5_v3]
theorem W6_v6 (c : Dev nD) : W6 m ρ c (Proc.devRef .tc main_v6) = (val_main_v6 (F := Ideal) (m ((c : Thread nD τ).loc main_arg1))) := by
  rw [W6_of_ne m ρ c main_v6 (by decide), W5_v6]
theorem W6_v29 (c : Dev nD) : W6 m ρ c (Proc.devRef .tc main_v29) = (val_main_v29 (F := Ideal) (m ((c : Thread nD τ).loc main_arg1))) := by
  rw [W6_of_ne m ρ c main_v29 (by decide), W5_v29]
theorem W6_arg5 (c : Dev nD) : W6 m ρ c (Proc.devRef .tc main_arg5) = (m ((c : Thread nD τ).loc main_arg5)) := by
  rw [W6_of_ne m ρ c main_arg5 (by decide), W5_arg5]
theorem W6_arg6 (c : Dev nD) : W6 m ρ c (Proc.devRef .tc main_arg6) = (m ((c : Thread nD τ).loc main_arg6)) := by
  rw [W6_of_ne m ρ c main_arg6 (by decide), W5_arg6]
theorem W6_arg7 (c : Dev nD) : W6 m ρ c (Proc.devRef .tc main_arg7) = (m ((c : Thread nD τ).loc main_arg7)) := by
  rw [W6_of_ne m ρ c main_arg7 (by decide), W5_arg7]

/-! ## Before the third grid -/

/-- The second aggregation: the same `agg`, of stage 1. -/
theorem W7_v58 (c : Dev nD) : W7 m ρ c (Proc.devRef .tc main_v58) = (agg (m ((c : Thread nD τ).loc main_arg1)) (Cert.Spec.stage1 (n := 100000) (K := 128) (h := 128) zr (agg (m ((c : Thread nD τ).loc main_arg1)) (Cert.Spec.mm (n := 100000) (K := 128) (h := 128) (m ((c : Thread nD τ).loc main_arg0)) (m ((c : Thread nD τ).loc main_arg2)))) (shapeCast S1x128 (m ((c : Thread nD τ).loc main_arg3)) shapeCasts_S128_S1x128) (m ((c : Thread nD τ).loc main_arg4)))) := by
  walk
  rw [W6_v3, W6_v6, W6_v29, W6_v45]
  rfl

/-- The second bias, as a one-row matrix. -/
theorem W7_v65 (c : Dev nD) : W7 m ρ c (Proc.devRef .tc main_v65) = (shapeCast S1x128 (m ((c : Thread nD τ).loc main_arg5)) shapeCasts_S128_S1x128) := by
  walk
  rw [W6_arg5]
  rfl

/-- The last factor written into column 0 of a zero matrix. -/
theorem W7_v61 (c : Dev nD) : W7 m ρ c (Proc.devRef .tc main_v61) = (Host.scatter scatter_S128x128_S1_S128x1_01_n_1_0 (fun _ b => b) (broadcastInDim S128x128 ![] bcast_S_S128x128 (constant (F := Ideal) S_ .f32 0x00000000#32)) (broadcastInDim S1 ![] bcast_S_S1 (constantI S_ 32 0#32)) (m ((c : Thread nD τ).loc main_arg6))) := by
  walk
  rw [W6_arg6]

/-- The last bias written into entry 0 of a zero vector, as a one-row matrix. -/
theorem W7_v66 (c : Dev nD) : W7 m ρ c (Proc.devRef .tc main_v66) = (shapeCast S1x128 (Host.scatter scatter_S128_S1_S1_0_n_0_0 (fun _ b => b) (broadcastInDim S128 ![] bcast_S_S128 (constant (F := Ideal) S_ .f32 0x00000000#32)) (broadcastInDim S1 ![] bcast_S_S1 (constantI S_ 32 0#32)) (m ((c : Thread nD τ).loc main_arg7))) shapeCasts_S128_S1x128) := by
  walk
  rw [W6_arg7]
  rfl

/-! ## After the third grid, and the result -/

/-- The third grid's array is stage 2 of the second aggregation over the padded factor and bias. -/
theorem W8_v67 (c : Dev nD) : W8 m ρ c (Proc.devRef .tc main_v67) = (Cert.Spec.stage2 (n := 100000) (K := 128) (h := 128) zr (agg (m ((c : Thread nD τ).loc main_arg1)) (Cert.Spec.stage1 (n := 100000) (K := 128) (h := 128) zr (agg (m ((c : Thread nD τ).loc main_arg1)) (Cert.Spec.mm (n := 100000) (K := 128) (h := 128) (m ((c : Thread nD τ).loc main_arg0)) (m ((c : Thread nD τ).loc main_arg2)))) (shapeCast S1x128 (m ((c : Thread nD τ).loc main_arg3)) shapeCasts_S128_S1x128) (m ((c : Thread nD τ).loc main_arg4)))) (shapeCast S1x128 (m ((c : Thread nD τ).loc main_arg5)) shapeCasts_S128_S1x128) (Host.scatter scatter_S128x128_S1_S128x1_01_n_1_0 (fun _ b => b) (broadcastInDim S128x128 ![] bcast_S_S128x128 (constant (F := Ideal) S_ .f32 0x00000000#32)) (broadcastInDim S1 ![] bcast_S_S1 (constantI S_ 32 0#32)) (m ((c : Thread nD τ).loc main_arg6))) (shapeCast S1x128 (Host.scatter scatter_S128_S1_S1_0_n_0_0 (fun _ b => b) (broadcastInDim S128 ![] bcast_S_S128 (constant (F := Ideal) S_ .f32 0x00000000#32)) (broadcastInDim S1 ![] bcast_S_S1 (constantI S_ 32 0#32)) (m ((c : Thread nD τ).loc main_arg7))) shapeCasts_S128_S1x128)) := by
  refine (W8_arr m ρ c 4).trans ?_
  rw [final2 (V7 m ρ) c]
  show Cert.Spec.stage2 (n := 100000) (K := 128) (h := 128) zr (W7 m ρ c (Proc.devRef .tc main_v58)) (W7 m ρ c (Proc.devRef .tc main_v65)) (W7 m ρ c (Proc.devRef .tc main_v61)) (W7 m ρ c (Proc.devRef .tc main_v66)) = _
  rw [W7_v58, W7_v65, W7_v61, W7_v66]

/-- The result is column 0 of that array. -/
theorem W9_v68 (c : Dev nD) : W9 m ρ c (Proc.devRef .tc main_v68)
    = extractStridedSlice S100000x1 ![0, 0] (Cert.Spec.stage2 (n := 100000) (K := 128) (h := 128) zr (agg (m ((c : Thread nD τ).loc main_arg1)) (Cert.Spec.stage1 (n := 100000) (K := 128) (h := 128) zr (agg (m ((c : Thread nD τ).loc main_arg1)) (Cert.Spec.mm (n := 100000) (K := 128) (h := 128) (m ((c : Thread nD τ).loc main_arg0)) (m ((c : Thread nD τ).loc main_arg2)))) (shapeCast S1x128 (m ((c : Thread nD τ).loc main_arg3)) shapeCasts_S128_S1x128) (m ((c : Thread nD τ).loc main_arg4)))) (shapeCast S1x128 (m ((c : Thread nD τ).loc main_arg5)) shapeCasts_S128_S1x128) (Host.scatter scatter_S128x128_S1_S128x1_01_n_1_0 (fun _ b => b) (broadcastInDim S128x128 ![] bcast_S_S128x128 (constant (F := Ideal) S_ .f32 0x00000000#32)) (broadcastInDim S1 ![] bcast_S_S1 (constantI S_ 32 0#32)) (m ((c : Thread nD τ).loc main_arg6))) (shapeCast S1x128 (Host.scatter scatter_S128_S1_S1_0_n_0_0 (fun _ b => b) (broadcastInDim S128 ![] bcast_S_S128 (constant (F := Ideal) S_ .f32 0x00000000#32)) (broadcastInDim S1 ![] bcast_S_S1 (constantI S_ 32 0#32)) (m ((c : Thread nD τ).loc main_arg7))) shapeCasts_S128_S1x128)) slices_S100000x128_S100000x1_0_0 := by
  walk
  rw [W8_v67]

end Cert.KernelIdeal.Val

end
-- ==== Proof.LibScatterSet.lean ====
/-
  A scatter whose body returns the update, read at an index.

  Such a scatter replaces, one update index after another, the operand's element at the index the update lands on by
  the update's element. Read at an operand index that exactly one update index lands on, the result is that update's
  element, whatever the order of the steps. Two instances: a `[K, 1]` column written at column start 0 into a `[K, h]`
  array is, at `(k, 0)`, the column's element `k`; a one-element vector written at start 0 into an `[h]` vector is,
  at 0, that element.
-/
import Idealize.ShloMosaic.PureOps.ShapeOps
import Idealize.ShloMosaic.Lib.ValueIdx

namespace Idealize.ShloMosaic

/-- A left fold of steps `g` acting on functions, read at one point `i`: if every step whose
    label satisfies `P` writes the value `c` at `i`, every other step leaves the value at `i`
    as it was, and some label in the list satisfies `P`, then the fold's value at `i` is `c`
    (the last such step writes `c`, and nothing after it touches `i`). -/
theorem foldl_apply_eq_of_exists {β γ ι : Type} (g : (β → γ) → ι → (β → γ)) (i : β) (c : γ) (P : ι → Prop)
    (hP : ∀ r n, P n → g r n i = c) (hnP : ∀ r n, ¬ P n → g r n i = r i)
    (L : List ι) (hL : ∃ n ∈ L, P n) (r : β → γ) : L.foldl g r i = c := by
  induction L using List.reverseRecOn with
  | nil => obtain ⟨n, hn, _⟩ := hL; cases hn
  | append_singleton L n ih =>
    rw [List.foldl_append, List.foldl_cons, List.foldl_nil]
    by_cases hn : P n
    · exact hP _ _ hn
    · rw [hnP _ _ hn]
      apply ih
      obtain ⟨m, hm, hPm⟩ := hL
      rcases List.mem_append.1 hm with h | h
      · exact ⟨m, h, hPm⟩
      · rw [List.mem_singleton] at h; subst h; exact absurd hPm hn

/-- A scatter whose body returns the update ("set"), read at an operand index `i` that exactly
    one update index `j` lands on, is that update's element `upd j`. -/
theorem Host.scatter_set_apply {α : Type} {s si u : Shape} {w : Nat} (d : ScatterDims s si u) (x : s.Idx → α)
    (idx : IVec si w) (upd : u.Idx → α) (j : u.Idx) (i : s.Idx) (hj : d.resultIdx? j idx = some i)
    (huniq : ∀ j' : u.Idx, d.resultIdx? j' idx = some i → j' = j) :
    Host.scatter d (fun _ b => b) x idx upd i = upd j := by
  unfold Host.scatter
  refine foldl_apply_eq_of_exists _ i (upd j) (fun n => u.rowMajor.symm n = j) ?_ ?_ _
    ⟨u.rowMajor j, List.mem_finRange _, u.rowMajor.symm_apply_apply j⟩ x
  · intro r n hn
    simp only [hn, hj, if_true]
  · intro r n hn
    have hne : d.resultIdx? (u.rowMajor.symm n) idx ≠ some i := fun h => hn (huniq _ h)
    cases h : d.resultIdx? (u.rowMajor.symm n) idx with
    | none => rfl
    | some i0 =>
      have hi : i ≠ i0 := fun e => hne (by rw [h, e])
      simp only [if_neg hi]

/-! ## A `[K, 1]` column written at column start `0` into a `[K, h]` array -/

section Column
variable {α : Type} {K h : Nat}

/-- The dimension numbers of a scatter of `[K, 1]` updates into a `[K, h]` operand at ONE scalar
    scatter index, which is the start on axis 1: both update axes are window axes, no operand axis
    is inserted. -/
abbrev scatterColumnDims (K h : Nat) (hwf : ScatterDims.WF ⟨2, ![K, h]⟩ ⟨1, ![1]⟩ ⟨2, ![K, 1]⟩ [0, 1] [] [1] 0) :
    ScatterDims ⟨2, ![K, h]⟩ ⟨1, ![1]⟩ ⟨2, ![K, 1]⟩ :=
  { updateWindowDims := [0, 1], insertedWindowDims := [], scatterDimsToOperandDims := [1], indexVectorDim := 0, wf := hwf }

/-- With the scatter index `0` the window starts at `0` on both axes: axis 0 is not in the map, axis 1
    reads the index. -/
theorem scatterColumnDims_start (hwf : ScatterDims.WF ⟨2, ![K, h]⟩ ⟨1, ![1]⟩ ⟨2, ![K, 1]⟩ [0, 1] [] [1] 0)
    (idx : IVec ⟨1, ![1]⟩ 32) (hidx : ∀ b, idx b = 0#32) (j : (⟨2, ![K, 1]⟩ : Shape).Idx) (a : Fin 2) :
    (scatterColumnDims K h hwf).start j idx a = 0 := by
  unfold ScatterDims.start
  split
  · rw [hidx]; rfl
  · rfl

/-- The window coordinate on each operand axis is the update index's coordinate on the same axis. -/
theorem scatterColumnDims_window (hwf : ScatterDims.WF ⟨2, ![K, h]⟩ ⟨1, ![1]⟩ ⟨2, ![K, 1]⟩ [0, 1] [] [1] 0)
    (j : (⟨2, ![K, 1]⟩ : Shape).Idx) (a : Fin 2) :
    (scatterColumnDims K h hwf).window j a = (j a).val := by
  match a with
  | ⟨0, _⟩ => rfl
  | ⟨1, _⟩ => rfl

/-- With the scatter index `0`, every update index lands on the operand index with the same two
    coordinates. -/
theorem scatterColumnDims_resultIdx (hh : 0 < h)
    (hwf : ScatterDims.WF ⟨2, ![K, h]⟩ ⟨1, ![1]⟩ ⟨2, ![K, 1]⟩ [0, 1] [] [1] 0)
    (idx : IVec ⟨1, ![1]⟩ 32) (hidx : ∀ b, idx b = 0#32) (j : (⟨2, ![K, 1]⟩ : Shape).Idx) :
    (scatterColumnDims K h hwf).resultIdx? j idx =
      some (ValueIdx.ix2 (j 0) ⟨(j 1).val, lt_of_lt_of_le (ValueIdx.idx2_lt1 j) hh⟩) := by
  have hs := scatterColumnDims_start (h := h) hwf idx hidx j
  have hw := scatterColumnDims_window (h := h) hwf j
  have h0 := ValueIdx.idx2_lt0 j
  have h1 := ValueIdx.idx2_lt1 j
  have H : ∀ a : Fin 2, 0 ≤ (scatterColumnDims K h hwf).start j idx a + (scatterColumnDims K h hwf).window j a ∧
      (scatterColumnDims K h hwf).start j idx a + (scatterColumnDims K h hwf).window j a < (![K, h] a : Nat) := by
    intro a
    rw [hs, hw]
    match a with
    | ⟨0, _⟩ => exact ⟨by omega, by show (0 : Int) + ((j 0).val : Int) < (K : Int); omega⟩
    | ⟨1, _⟩ => exact ⟨by omega, by show (0 : Int) + ((j 1).val : Int) < (h : Int); omega⟩
  unfold ScatterDims.resultIdx?
  rw [dif_pos H]
  congr 1
  funext a
  apply Fin.ext
  show ((scatterColumnDims K h hwf).start j idx a + (scatterColumnDims K h hwf).window j a).toNat = _
  rw [hs, hw]
  match a with
  | ⟨0, _⟩ => show ((0 : Int) + ((j 0).val : Int)).toNat = (j 0).val; omega
  | ⟨1, _⟩ => show ((0 : Int) + ((j 1).val : Int)).toNat = (j 1).val; omega

/-- A `[K, 1]` column written ("set") at column start `0` into a `[K, h]` array, read at `(k, 0)`,
    is the column's element `k`. -/
theorem Host.scatter_set_column_zero (hh : 0 < h)
    (hwf : ScatterDims.WF ⟨2, ![K, h]⟩ ⟨1, ![1]⟩ ⟨2, ![K, 1]⟩ [0, 1] [] [1] 0)
    (x : (⟨2, ![K, h]⟩ : Shape).Idx → α) (idx : IVec ⟨1, ![1]⟩ 32) (hidx : ∀ b, idx b = 0#32)
    (upd : (⟨2, ![K, 1]⟩ : Shape).Idx → α) (k : Fin K) :
    Host.scatter ({ updateWindowDims := [0, 1], insertedWindowDims := [], scatterDimsToOperandDims := [1], indexVectorDim := 0, wf := hwf } : ScatterDims ⟨2, ![K, h]⟩ ⟨1, ![1]⟩ ⟨2, ![K, 1]⟩)
      (fun _ b => b) x idx upd (ValueIdx.ix2 k ⟨0, hh⟩) = upd (ValueIdx.ix2 k 0) := by
  refine Host.scatter_set_apply (scatterColumnDims K h hwf) x idx upd (ValueIdx.ix2 k 0) (ValueIdx.ix2 k ⟨0, hh⟩) ?_ ?_
  · rw [scatterColumnDims_resultIdx hh hwf idx hidx]
    rfl
  · intro j' hj'
    rw [scatterColumnDims_resultIdx hh hwf idx hidx] at hj'
    have e0 : j' 0 = k := congrFun (Option.some.inj hj') (0 : Fin 2)
    funext a
    match a with
    | ⟨0, _⟩ => exact e0
    | ⟨1, _⟩ => exact Subsingleton.elim (α := Fin 1) _ _

end Column

/-! ## A one-element vector written at start `0` into an `[h]` vector -/

section Head
variable {α : Type} {h : Nat}

/-- The dimension numbers of a scatter of a `[1]` update into an `[h]` operand at ONE scalar scatter
    index, the start on the operand's axis: the update's axis is a window axis, no operand axis is
    inserted. -/
abbrev scatterHeadDims (h : Nat) (hwf : ScatterDims.WF ⟨1, ![h]⟩ ⟨1, ![1]⟩ ⟨1, ![1]⟩ [0] [] [0] 0) :
    ScatterDims ⟨1, ![h]⟩ ⟨1, ![1]⟩ ⟨1, ![1]⟩ :=
  { updateWindowDims := [0], insertedWindowDims := [], scatterDimsToOperandDims := [0], indexVectorDim := 0, wf := hwf }

/-- With the scatter index `0` the window starts at `0`. -/
theorem scatterHeadDims_start (hwf : ScatterDims.WF ⟨1, ![h]⟩ ⟨1, ![1]⟩ ⟨1, ![1]⟩ [0] [] [0] 0)
    (idx : IVec ⟨1, ![1]⟩ 32) (hidx : ∀ b, idx b = 0#32) (j : (⟨1, ![1]⟩ : Shape).Idx) (a : Fin 1) :
    (scatterHeadDims h hwf).start j idx a = 0 := by
  unfold ScatterDims.start
  split
  · rw [hidx]; rfl
  · rfl

/-- The window coordinate on the operand's axis is the update index's coordinate. -/
theorem scatterHeadDims_window (hwf : ScatterDims.WF ⟨1, ![h]⟩ ⟨1, ![1]⟩ ⟨1, ![1]⟩ [0] [] [0] 0)
    (j : (⟨1, ![1]⟩ : Shape).Idx) (a : Fin 1) :
    (scatterHeadDims h hwf).window j a = (j a).val := by
  match a with
  | ⟨0, _⟩ => rfl

/-- With the scatter index `0`, every update index lands on the operand index with the same
    coordinate. -/
theorem scatterHeadDims_resultIdx (hh : 0 < h)
    (hwf : ScatterDims.WF ⟨1, ![h]⟩ ⟨1, ![1]⟩ ⟨1, ![1]⟩ [0] [] [0] 0)
    (idx : IVec ⟨1, ![1]⟩ 32) (hidx : ∀ b, idx b = 0#32) (j : (⟨1, ![1]⟩ : Shape).Idx) :
    (scatterHeadDims h hwf).resultIdx? j idx =
      some (ValueIdx.ix1 ⟨(j 0).val, lt_of_lt_of_le (show (j 0).val < 1 from (j 0).isLt) hh⟩) := by
  have hs := scatterHeadDims_start (h := h) hwf idx hidx j
  have hw := scatterHeadDims_window (h := h) hwf j
  have h0 : (j 0).val < 1 := (j 0).isLt
  have H : ∀ a : Fin 1, 0 ≤ (scatterHeadDims h hwf).start j idx a + (scatterHeadDims h hwf).window j a ∧
      (scatterHeadDims h hwf).start j idx a + (scatterHeadDims h hwf).window j a < (![h] a : Nat) := by
    intro a
    rw [hs, hw]
    match a with
    | ⟨0, _⟩ => exact ⟨by omega, by show (0 : Int) + ((j 0).val : Int) < (h : Int); omega⟩
  unfold ScatterDims.resultIdx?
  rw [dif_pos H]
  congr 1
  funext a
  apply Fin.ext
  show ((scatterHeadDims h hwf).start j idx a + (scatterHeadDims h hwf).window j a).toNat = _
  rw [hs, hw]
  match a with
  | ⟨0, _⟩ => show ((0 : Int) + ((j 0).val : Int)).toNat = (j 0).val; omega

/-- A one-element vector written ("set") at start `0` into an `[h]` vector, read at `0`, is that
    element. -/
theorem Host.scatter_set_head (hh : 0 < h)
    (hwf : ScatterDims.WF ⟨1, ![h]⟩ ⟨1, ![1]⟩ ⟨1, ![1]⟩ [0] [] [0] 0)
    (x : (⟨1, ![h]⟩ : Shape).Idx → α) (idx : IVec ⟨1, ![1]⟩ 32) (hidx : ∀ b, idx b = 0#32)
    (upd : (⟨1, ![1]⟩ : Shape).Idx → α) :
    Host.scatter ({ updateWindowDims := [0], insertedWindowDims := [], scatterDimsToOperandDims := [0], indexVectorDim := 0, wf := hwf } : ScatterDims ⟨1, ![h]⟩ ⟨1, ![1]⟩ ⟨1, ![1]⟩)
      (fun _ b => b) x idx upd (ValueIdx.ix1 ⟨0, hh⟩) = upd (ValueIdx.ix1 0) := by
  refine Host.scatter_set_apply (scatterHeadDims h hwf) x idx upd (ValueIdx.ix1 0) (ValueIdx.ix1 ⟨0, hh⟩) ?_ ?_
  · rw [scatterHeadDims_resultIdx hh hwf idx hidx]
    rfl
  · intro j' _
    funext a
    match a with
    | ⟨0, _⟩ => exact Subsingleton.elim (α := Fin 1) _ _

end Head

end Idealize.ShloMosaic
-- ==== Proof.Bridge.lean ====
/-
  Two small facts joining the kernel's spelling of its last stage to the specification's.

  * A bias vector cast to a one-row matrix is that vector as a row: entry `(0, k)` of the cast is entry `k`.
  * The kernel's last stage multiplies by a `[K, h]` matrix that is zero except for column 0, where the one-column
    factor `wl` was written, adds a row that is zero except for entry 0, where the one-entry bias was written, and
    keeps column 0 of the result. Column 0 of a product reads only column 0 of the right factor, and column 0 of the
    padded factor is `wl` (each update `(k, 0)` of the write lands on `(k, 0)` and nowhere else); entry 0 of the
    padded row is the bias. So column 0 of the padded stage is the one-column stage.
-/
import proofs.«136650_j63556926046385_1_alg».proof.Proof.Spec
import proofs.«136650_j63556926046385_1_alg».proof.Proof.LibScatterSet
import Idealize.ShloMosaic.Lib.ValueLayout
import Idealize.ShloMosaic.Lib.Pipeline.Value

noncomputable section

namespace Cert.Spec

open Idealize.ShloMosaic Idealize.ShloMosaic.ValueIdx

/-- A vector cast to a one-row matrix is the vector as a row. -/
theorem shapeCast_row {K : Nat} (b : (⟨1, ![K]⟩ : Shape).Idx → EReal)
    (h : (⟨1, ![K]⟩ : Shape).ShapeCasts ⟨2, ![1, K]⟩) : shapeCast ⟨2, ![1, K]⟩ b h = rowOf b := by
  funext i
  obtain ⟨u, k, rfl⟩ : ∃ (u : Fin 1) (k : Fin K), i = ix2 u k := ⟨i 0, i 1, eq_ix2 i⟩
  rw [shapeCast_a_1a_apply, rowOf_apply]

/-- Column 0 of stage 2 over the padded factor and the padded bias row is the one-column stage 2. -/
theorem slice_stage2_padded {n K h : Nat} (hh : 0 < h) (z : EReal)
    (a : (⟨2, ![n, K]⟩ : Shape).Idx → EReal) (b : (⟨2, ![1, K]⟩ : Shape).Idx → EReal)
    (hwfW : ScatterDims.WF ⟨2, ![K, h]⟩ ⟨1, ![1]⟩ ⟨2, ![K, 1]⟩ [0, 1] [] [1] 0)
    (hwfb : ScatterDims.WF ⟨1, ![h]⟩ ⟨1, ![1]⟩ ⟨1, ![1]⟩ [0] [] [0] 0)
    (xW : (⟨2, ![K, h]⟩ : Shape).Idx → EReal) (xb : (⟨1, ![h]⟩ : Shape).Idx → EReal)
    (idxW idxb : IVec ⟨1, ![1]⟩ 32) (hiW : ∀ j, idxW j = 0#32) (hib : ∀ j, idxb j = 0#32)
    (wl : (⟨2, ![K, 1]⟩ : Shape).Idx → EReal) (bl : (⟨1, ![1]⟩ : Shape).Idx → EReal)
    (hc : (⟨1, ![h]⟩ : Shape).ShapeCasts ⟨2, ![1, h]⟩)
    (hs : (⟨2, ![n, h]⟩ : Shape).Slices ![0, 0] ⟨2, ![n, 1]⟩) :
    extractStridedSlice ⟨2, ![n, 1]⟩ ![0, 0]
      (stage2 z a b
        (Host.scatter ({ updateWindowDims := [0, 1], insertedWindowDims := [], scatterDimsToOperandDims := [1], indexVectorDim := 0, wf := hwfW } : ScatterDims ⟨2, ![K, h]⟩ ⟨1, ![1]⟩ ⟨2, ![K, 1]⟩) (fun _ u => u) xW idxW wl)
        (shapeCast ⟨2, ![1, h]⟩
          (Host.scatter ({ updateWindowDims := [0], insertedWindowDims := [], scatterDimsToOperandDims := [0], indexVectorDim := 0, wf := hwfb } : ScatterDims ⟨1, ![h]⟩ ⟨1, ![1]⟩ ⟨1, ![1]⟩) (fun _ u => u) xb idxb bl) hc)) hs
    = stage2 (h := 1) z a b wl (rowOf bl) := by
  funext i
  obtain ⟨e, q, rfl⟩ : ∃ (e : Fin n) (q : Fin 1), i = ix2 e q := ⟨i 0, i 1, eq_ix2 i⟩
  have hq : q = 0 := Subsingleton.elim _ _
  subst hq
  rw [slice2_axis1_apply 0 _ hs e (0 : Fin 1) (⟨0, hh⟩ : Fin h) rfl]
  rw [stage2_col z a b _ _ wl (bl (ix1 (0 : Fin 1))) (⟨0, hh⟩ : Fin h)
    (fun k => Host.scatter_set_column_zero hh hwfW xW idxW hiW wl k)
    (by rw [shapeCast_a_1a_apply]; exact Host.scatter_set_head hh hwfb xb idxb hib bl) e]
  rw [stage2_apply, rowOf_apply]

end Cert.Spec

end
-- ==== Proof.Final.lean ====
/-
  The two programs compute one function, and the claims.

  With `A = agg e` the neighbour aggregation along the edge list `e` (one function on both sides, never opened),
  both programs end with
      G = stage2 (A (stage1 (A (x · W1)) b1 W2)) b2 Wl bl :
  the product, the aggregation, bias–rectify–product, the aggregation, bias–rectify–product–bias.
  The kernel reaches it through its three grids (each a whole-array stage, Region0–2), the host operations between
  them read back segment by segment (Walk), and the final column slice of the padded last stage (Bridge); the
  reference through its run read one operation at a time (RefValue). Nothing here uses that the inputs are finite:
  both sides are the same sums of the same terms.
-/
import proofs.«136650_j63556926046385_1_alg».proof.Defs
import proofs.«136650_j63556926046385_1_alg».proof.Proof.Gen.Kernel.Frame
import proofs.«136650_j63556926046385_1_alg».proof.Proof.Gen.Pre_finite_inputs
import proofs.«136650_j63556926046385_1_alg».proof.Proof.KernelRun
import proofs.«136650_j63556926046385_1_alg».proof.Proof.Walk
import proofs.«136650_j63556926046385_1_alg».proof.Proof.Bridge
import proofs.«136650_j63556926046385_1_alg».proof.Proof.RefValue

set_option maxRecDepth 16384

noncomputable section

namespace Cert.Proof

open Idealize.ShloMosaic Idealize.ShloMosaic.TcCoe Idealize.SL.Sem Idealize.ShloMosaic.ValueIdx
open Cert.Spec
open Cert.ReferenceIdeal.RefVal (agg)

/-- The zero the rectifiers compare with. -/
abbrev zr : EReal := Ideal.ofBits .f32 0x00000000#32

/-- The result as one function of the eight arguments. -/
def G (x0 : (⟨2, ![100000, 128]⟩ : Shape).Idx → EReal) (x1 : (⟨Cert.ReferenceIdeal.S2x1600000, .i32⟩ : BufTy).Contents (Elt Ideal))
    (x2 : (⟨2, ![128, 128]⟩ : Shape).Idx → EReal) (x3 : (⟨1, ![128]⟩ : Shape).Idx → EReal)
    (x4 : (⟨2, ![128, 128]⟩ : Shape).Idx → EReal) (x5 : (⟨1, ![128]⟩ : Shape).Idx → EReal)
    (x6 : (⟨2, ![128, 1]⟩ : Shape).Idx → EReal) (x7 : (⟨1, ![1]⟩ : Shape).Idx → EReal) :
    (⟨2, ![100000, 1]⟩ : Shape).Idx → EReal :=
  stage2 (n := 100000) (K := 128) (h := 1) zr
    (agg (F := Ideal) x1 (stage1 (n := 100000) (K := 128) (h := 128) zr (agg (F := Ideal) x1 (mm (n := 100000) (K := 128) (h := 128) x0 x2)) (rowOf x3) x4))
    (rowOf x5) x6 (rowOf x7)

section Kernel
open Cert.KernelIdeal Cert.KernelIdeal.Gen Cert.KernelIdeal.Val

variable (m : (ℓ : Loc Cert.KernelIdeal.nD Cert.KernelIdeal.τ Cert.KernelIdeal.sig) → Buf (Elt Ideal) ℓ) (ρ : Dev Cert.KernelIdeal.nD → PrngReg)

/-- The kernel's result buffer ends at `G` of the launched arguments. -/
theorem kernel_value (c : Dev Cert.KernelIdeal.nD) :
    W9 m ρ c (Proc.devRef .tc main_v68) = G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [W9_v68]
  refine (slice_stage2_padded (n := 100000) (K := 128) (h := 128) (by decide) zr _ _
    scatter_S128x128_S1_S128x1_01_n_1_0.wf scatter_S128_S1_S1_0_n_0_0.wf _ _ _ _ (fun _ => rfl) (fun _ => rfl) _ _
    shapeCasts_S128_S1x128 slices_S100000x128_S100000x1_0_0).trans ?_
  rw [shapeCast_row, shapeCast_row]
  rfl

/-- Every weakly fair execution of the idealized kernel terminates with its result at `G` of the arguments and the
    arguments as launched. -/
theorem kernel_run : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread Cert.KernelIdeal.nD Cert.KernelIdeal.τ).loc Cert.KernelIdeal.main_v68) = G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run (Cert.KernelIdeal.defs (F := Ideal)) _ _).mono (fun r h c => ⟨(h c).1.trans (kernel_value m ρ c), (h c).2⟩)
    (Cert.KernelIdeal.Val.run_out (F := Ideal) m ρ)

end Kernel

section Reference
open Cert.ReferenceIdeal Cert.ReferenceIdeal.Gen Cert.ReferenceIdeal.ReadP Cert.ReferenceIdeal.RefVal

/-- The reference's result term is `G` of its arguments. -/
theorem reference_value (m' : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v69 (F := Ideal) m' c = G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) := by
  rw [val_main_v69_eq, v69_eq, v61_eq, v48_eq, v43_eq, v30_eq]
  rfl

end Reference

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: there is nothing to preserve beyond the program's own text. -/
theorem preserves : Cert.preserves_Kernel_KernelIdeal := trivial

/-- From memories agreeing on the arguments, both idealized programs end with the same result, `G` of the arguments. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), kernel_run m ρ, ?_⟩
  refine (θ_run Cert.ReferenceIdeal.defs _ _).mono (fun _ h c => ⟨(h c).1.trans ?_, (h c).2⟩)
    (Cert.ReferenceIdeal.ValueP.run (F := Ideal) m' ρ')
  rw [reference_value m' c]
  obtain ⟨h0, h1, h2, h3, h4, h5, h6, h7⟩ := hagree c
  rw [h0, h1, h2, h3, h4, h5, h6, h7]

end Cert.Proof

end
-- ==== Proof.lean ====
/-
  Two graph-convolution layers and a linear layer: the tiled kernel against the plain reference.

  Both programs take node features `x : [100000, 128]`, an edge list `e : [2, 1600000]` and the weights, add a
  self-loop per node, weight edge `j` by `norm j = dinv (src j) · dinv (dst j)` (`dinv` the reciprocal square root of
  the in-degree where it is positive), and compute
      h1 = x · W1,   a1 = A h1,   h2 = relu (a1 + b1) · W2,   a2 = A h2,   out = relu (a2 + b2) · Wl + bl,
  where `A h` gathers the rows of `h` by source node, scales row `j` by `norm j`, and adds it into the row of the
  destination node. The kernel computes the three dense stages as grids over blocks of 5000 rows (rounding through a
  narrower format on the way into each product, which is the identity on exact values), pads the last factor and
  bias to 128 columns and keeps column 0; everything index-dependent — the degrees, the weights, the gathers and
  the scatter-adds — is the same host operations in both programs.

  The proof (modules under Proof/):
    Spec      the three dense stages as whole-array functions, and the column-0 fact;
    Payloads  what each kernel body stores, at an entry;  Region0–2  each grid's array is its stage;
    KernelRun the kernel's run with its result kept;      Walk  the result read back through the nine segments;
    RefRun, RefRead  the reference's run and its operations one at a time;  RefValue  the reference stage by stage;
    Bridge    the padded last stage's column 0;           Final  both results are one function `G`, and the claims.
  At the exact extended-real values the two results are the same sums of the same terms; finiteness of the inputs
  is never used.
-/
import proofs.«136650_j63556926046385_1_alg».proof.Defs
import proofs.«136650_j63556926046385_1_alg».proof.Proof.Gen.Kernel
import proofs.«136650_j63556926046385_1_alg».proof.Proof.Gen.KernelIdeal
import proofs.«136650_j63556926046385_1_alg».proof.Proof.Gen.ReferenceIdeal
import proofs.«136650_j63556926046385_1_alg».proof.Proof.Gen.Pre_finite_inputs
import proofs.«136650_j63556926046385_1_alg».proof.Proof.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
